-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40 .f32) (main_arg7 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg7
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S40x128 .f32) (main_arg6 : FVec F S40 .f32) (main_arg7 : FVec F S40x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S10000x128 : Shape := ⟨2, ![10000, 128]⟩
abbrev S128x40 : Shape := ⟨2, ![128, 40]⟩
abbrev S1x40 : Shape := ⟨2, ![1, 40]⟩
abbrev S100000x40 : Shape := ⟨2, ![100000, 40]⟩
abbrev S10000x40 : Shape := ⟨2, ![10000, 40]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x40, .f32⟩
  | .hbm, ⟨67, _⟩ => ⟨S128x40, .f32⟩
  | .hbm, ⟨68, _⟩ => ⟨S1x40, .f32⟩
  | .hbm, ⟨69, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x40, .f32⟩
  | .local _ .vmem, ⟨14, _⟩ => ⟨S128x40, .f32⟩
  | .local _ .vmem, ⟨15, _⟩ => ⟨S1x40, .f32⟩
  | .local _ .vmem, ⟨16, _⟩ => ⟨S10000x40, .f32⟩
  | .local _ .vmem, ⟨17, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x40.size a ≤ S100000x40.size a
  hwx1_5 : ∀ i : grid1.Coords, EltTy.bits .f32 = 32 ∨ (Rect.block (s := S100000x40) S10000x40.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S10000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x40, .f32⟩
  | .hbm, ⟨74, _⟩ => ⟨S100000x40, .f32⟩
  | .hbm, ⟨75, _⟩ => ⟨S1x40, .f32⟩
  | .hbm, ⟨76, _⟩ => ⟨S100000x40, .f32⟩
  | .hbm, ⟨77, _⟩ => ⟨S100000x40, .f32⟩
  | .hbm, ⟨78, _⟩ => ⟨S128x40, .f32⟩
  | .hbm, ⟨79, _⟩ => ⟨S100000x40, .f32⟩
  | .hbm, ⟨80, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel program run from any memory: two pallas_call regions among two stretches of host
  operations. The buffer contents at each boundary are a fold through @main: the launch memory, then the
  first stretch's operations applied, then the first region's arrays at what its write-backs leave, then the
  second stretch, then the second region's arrays. This module re-posts that run with the RESULT array named:
  on every core the result buffer ends at the last boundary's contents read at the result's reference, and the
  eight argument arrays end as launched.
-/
import proofs.«176977_j28346784153656_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array then holds the contents
    of the last boundary of the fold at the result's reference, and every argument array what it held at launch.
    The chain of segments is the one the frame uses; only the reading of the final state is longer by the
    result's buffer, which is one of the unscoped buffers the last thread state holds. -/
theorem run : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.Payload.lean ====
/-
  The arithmetic of the two kernel bodies, read at one element. Each body loads a block of 10000 rows of the
  aggregated features and of the node features, the two weight matrices (already transposed, 128 rows) and the
  bias row, rounds all but the bias to bf16 (the identity on extended reals), multiplies on the matrix unit into a
  zero accumulator, adds the two products, adds the bias row broadcast down the rows, and — in the first layer
  only — takes the maximum with zero. At row `p`, column `q` that is

      (∑ k, agg[p,k]·wl[k,q]) + (∑ k, x[p,k]·wr[k,q]) + b[0,q]      (first layer: its maximum with 0).
-/
import proofs.«176977_j28346784153656_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx

/-- Inside the body the matrix product into the zero accumulator, read at row `p` and column `q`, is the sum over the
    `128` contracted positions of the left operand's row `p` times the right operand's column `q`: the one
    contracted axis of the product is re-indexed by `Fin 128`. -/
theorem matmul_hidden_apply (a : FVec Ideal S10000x128 .bf16) (w : FVec Ideal S128x128 .bf16) (p : Fin 10000) (q : Fin 128) :
    matmul dot_S10000x128_S128x128_S10000x128_1_0_0_1_n_n none a w (constant (F := Ideal) S10000x128 .f32 0x00000000#32) (ix2 p q)
      = ∑ k : Fin 128, a (ix2 p k) * w (ix2 k q) := by
  refine (Ideal.matmul_constant_zero_apply dot_S10000x128_S128x128_S10000x128_1_0_0_1_n_n none a w (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun ax => Fin.ext (by
    match ax with
    | ⟨0, _⟩ =>
      show (dot_S10000x128_S128x128_S10000x128_1_0_0_1_n_n.lhsIdx (ix2 p q) _ 0).val = p.val
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl
    | ⟨1, _⟩ => exact (dot_S10000x128_S128x128_S10000x128_1_0_0_1_n_n.lhsIdx_val_of_single rfl (ix2 p q) _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun ax => Fin.ext (by
    match ax with
    | ⟨0, _⟩ => exact (dot_S10000x128_S128x128_S10000x128_1_0_0_1_n_n.rhsIdx_val_of_single rfl (ix2 p q) _).trans hk
    | ⟨1, _⟩ =>
      show (dot_S10000x128_S128x128_S10000x128_1_0_0_1_n_n.rhsIdx (ix2 p q) _ 1).val = q.val
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
  rw [el, er]

/-- Inside the body the matrix product into the zero accumulator, read at row `p` and column `q`, is the sum over the
    `128` contracted positions of the left operand's row `p` times the right operand's column `q`: the one
    contracted axis of the product is re-indexed by `Fin 128`. -/
theorem matmul_logits_apply (a : FVec Ideal S10000x128 .bf16) (w : FVec Ideal S128x40 .bf16) (p : Fin 10000) (q : Fin 40) :
    matmul dot_S10000x128_S128x40_S10000x40_1_0_0_1_n_n none a w (constant (F := Ideal) S10000x40 .f32 0x00000000#32) (ix2 p q)
      = ∑ k : Fin 128, a (ix2 p k) * w (ix2 k q) := by
  refine (Ideal.matmul_constant_zero_apply dot_S10000x128_S128x40_S10000x40_1_0_0_1_n_n none a w (ix2 p q)).trans ?_
  rw [← Equiv.sum_comp (ValueIdx.contrEquiv1 dot_S10000x128_S128x40_S10000x40_1_0_0_1_n_n 128 rfl rfl).symm]
  refine Finset.sum_congr rfl fun k _ => ?_
  have hk := ValueIdx.contrEquiv1_symm_val dot_S10000x128_S128x40_S10000x40_1_0_0_1_n_n 128 rfl rfl k
  have el : dot_S10000x128_S128x40_S10000x40_1_0_0_1_n_n.lhsIdx (ix2 p q) ((ValueIdx.contrEquiv1 dot_S10000x128_S128x40_S10000x40_1_0_0_1_n_n 128 rfl rfl).symm k) = ix2 p k := funext fun ax => Fin.ext (by
    match ax with
    | ⟨0, _⟩ =>
      show (dot_S10000x128_S128x40_S10000x40_1_0_0_1_n_n.lhsIdx (ix2 p q) _ 0).val = p.val
      unfold DotDims.lhsIdx
      rw [dif_neg (show ¬(0 : Fin S10000x128.rank) ∈ dot_S10000x128_S128x40_S10000x40_1_0_0_1_n_n.lhsBatch by decide), dif_pos (show (0 : Fin S10000x128.rank) ∈ dot_S10000x128_S128x40_S10000x40_1_0_0_1_n_n.lhsNonContracting by decide)]
      rfl
    | ⟨1, _⟩ => exact (dot_S10000x128_S128x40_S10000x40_1_0_0_1_n_n.lhsIdx_val_of_single rfl (ix2 p q) _).trans hk)
  have er : dot_S10000x128_S128x40_S10000x40_1_0_0_1_n_n.rhsIdx (ix2 p q) ((ValueIdx.contrEquiv1 dot_S10000x128_S128x40_S10000x40_1_0_0_1_n_n 128 rfl rfl).symm k) = ix2 k q := funext fun ax => Fin.ext (by
    match ax with
    | ⟨0, _⟩ => exact (dot_S10000x128_S128x40_S10000x40_1_0_0_1_n_n.rhsIdx_val_of_single rfl (ix2 p q) _).trans hk
    | ⟨1, _⟩ =>
      show (dot_S10000x128_S128x40_S10000x40_1_0_0_1_n_n.rhsIdx (ix2 p q) _ 1).val = q.val
      unfold DotDims.rhsIdx
      rw [dif_neg (show ¬(1 : Fin S128x40.rank) ∈ dot_S10000x128_S128x40_S10000x40_1_0_0_1_n_n.rhsBatch by decide), dif_pos (show (1 : Fin S128x40.rank) ∈ dot_S10000x128_S128x40_S10000x40_1_0_0_1_n_n.rhsNonContracting by decide)]
      rfl)
  rw [el, er]

/-- The first layer's stored value at row `p`, column `q` of the block. -/
theorem pay_hidden_apply (x0 x1 : Vec Ideal S10000x128 .f32) (x2 x3 : Vec Ideal S128x128 .f32) (x4 : Vec Ideal S1x128 .f32)
    (p : Fin 10000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q)) 0 := by
  unfold k0_pay1
  simp only [shapeCast_self]
  show max ((matmul dot_S10000x128_S128x128_S10000x128_1_0_0_1_n_n none (truncf .bf16 x0 bitsLt_bf16_f32) (truncf .bf16 x2 bitsLt_bf16_f32) (constant (F := Ideal) S10000x128 .f32 0x00000000#32) (ix2 p q)
      + matmul dot_S10000x128_S128x128_S10000x128_1_0_0_1_n_n none (truncf .bf16 x1 bitsLt_bf16_f32) (truncf .bf16 x3 bitsLt_bf16_f32) (constant (F := Ideal) S10000x128 .f32 0x00000000#32) (ix2 p q))
      + broadcastTo S10000x128 x4 broadcasts_S1x128_S10000x128 (ix2 p q)) (Ideal.ofBits .f32 0x00000000#32) = _
  rw [matmul_hidden_apply, matmul_hidden_apply, broadcastTo_1b_ab_apply, Ideal.ofBits_zero_f32]
  rfl

/-- The second layer's stored value at row `p`, column `q` of the block. -/
theorem pay_logits_apply (x0 x1 : Vec Ideal S10000x128 .f32) (x2 x3 : Vec Ideal S128x40 .f32) (x4 : Vec Ideal S1x40 .f32)
    (p : Fin 10000) (q : Fin 40) :
    k1_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold k1_pay1
  simp only [shapeCast_self]
  show (matmul dot_S10000x128_S128x40_S10000x40_1_0_0_1_n_n none (truncf .bf16 x0 bitsLt_bf16_f32) (truncf .bf16 x2 bitsLt_bf16_f32) (constant (F := Ideal) S10000x40 .f32 0x00000000#32) (ix2 p q)
      + matmul dot_S10000x128_S128x40_S10000x40_1_0_0_1_n_n none (truncf .bf16 x1 bitsLt_bf16_f32) (truncf .bf16 x3 bitsLt_bf16_f32) (constant (F := Ideal) S10000x40 .f32 0x00000000#32) (ix2 p q))
      + broadcastTo S10000x40 x4 broadcasts_S1x40_S10000x40 (ix2 p q) = _
  rw [matmul_logits_apply, matmul_logits_apply, broadcastTo_1b_ab_apply]
  rfl

end Cert.KernelIdeal.Body

end
-- ==== Proof.Spec.lean ====
/-
  The dense half of a GraphSAGE layer as one function of whole arrays, element by element.

  For 100000 nodes with 128 input features, an aggregated-neighbour matrix `agg`, the node features `x`, two
  weight matrices given already transposed (128 rows, `n` columns) and a bias given as a row, the layer's value
  at node `p`, output feature `q` is

      lin agg x wl wr b p q = (∑ k, agg[p,k]·wl[k,q]) + (∑ k, x[p,k]·wr[k,q]) + b[0,q].

  The first layer (`n = 128`) takes the maximum with zero; the second (`n = 40`) is `lin` itself. Everything is
  on the extended reals, where addition is commutative and associative without any finiteness assumption; the one
  algebraic fact used later is that the bias may be added before or after the second product.
-/
import Idealize.ShloMosaic.PureOps.Ideal
import Idealize.ShloMosaic.Lib.ValueIdx

noncomputable section

namespace Cert.Sage

open Idealize.ShloMosaic Idealize.ShloMosaic.ValueIdx

/-- An `a × b` matrix of extended reals, indexed as the programs index their rank-2 arrays. -/
abbrev Mat (a b : Nat) : Type := (⟨2, ![a, b]⟩ : Shape).Idx → EReal

/-- The affine part of a layer at node `p`, output feature `q`. -/
def lin {n : Nat} (agg x : Mat 100000 128) (wl wr : Mat 128 n) (b : Mat 1 n) (p : Fin 100000) (q : Fin n) : EReal :=
  (∑ k : Fin 128, agg (ix2 p k) * wl (ix2 k q)) + (∑ k : Fin 128, x (ix2 p k) * wr (ix2 k q)) + b (ix2 (0 : Fin 1) q)

/-- The first layer: the affine part followed by the rectifier. -/
def hidden (agg x : Mat 100000 128) (wl wr : Mat 128 128) (b : Mat 1 128) : Mat 100000 128 :=
  fun i => max (lin agg x wl wr b (i 0) (i 1)) 0

/-- The second layer: the affine part alone, 40 output features. -/
def logits (agg x : Mat 100000 128) (wl wr : Mat 128 40) (b : Mat 1 40) : Mat 100000 40 :=
  fun i => lin agg x wl wr b (i 0) (i 1)

theorem hidden_apply (agg x : Mat 100000 128) (wl wr : Mat 128 128) (b : Mat 1 128) (p : Fin 100000) (q : Fin 128) :
    hidden agg x wl wr b (ix2 p q) = max (lin agg x wl wr b p q) 0 := rfl

theorem logits_apply (agg x : Mat 100000 128) (wl wr : Mat 128 40) (b : Mat 1 40) (p : Fin 100000) (q : Fin 40) :
    logits agg x wl wr b (ix2 p q) = lin agg x wl wr b p q := rfl

/-- Adding the bias between the two products or after them is the same sum. -/
theorem add_bias_middle (s t u : EReal) : s + u + t = s + t + u := add_right_comm s u t

end Cert.Sage

end
-- ==== Proof.Regions.lean ====
/-
  From blocks to arrays, for both pallas_call regions, at ANY contents `V` of the buffers when the region is
  entered. Each region runs its body at ten grid points; point `t` reads rows `t·10000 … t·10000 + 9999` of the two
  feature arrays, the whole of the two weight matrices and of the bias row, and writes back rows
  `t·10000 … t·10000 + 9999` of the output. Since the body's value at an element depends only on that element's
  row of the features, every written block is the restriction of ONE function of the whole arrays (`hidden` for the
  first region, `logits` for the second); the ten blocks cover the output, so after the region the output array IS
  that function of the arrays as entered.
-/
import proofs.«176977_j28346784153656_1_alg».proof.Proof.Gen.KernelIdeal.Frame
import proofs.«176977_j28346784153656_1_alg».proof.Proof.Payload
import proofs.«176977_j28346784153656_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer -/

/-- The block index of every window at every grid point: the two feature windows and the output move down the rows
    with the point, the weights and the bias stay at block 0. Decided once over the ten points. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- Row `p` of point `t`'s block is row `t·10000 + p` of the array. -/
def row0 (t : Fin cfg0.N) (p : Fin 10000) : Fin 100000 :=
  ⟨t.val * 10000 + p.val, by have h := t.isLt; have hN : cfg0.N = 10 := N_0; have := p.isLt; omega⟩

/-- The aggregated-feature window's block read at an element. -/
theorem blk0_0 (c : Dev nD) (t : Fin cfg0.N) (p : Fin 10000) (k : Fin 128) :
    iblk0 V c 0 t (ix2 p k) = V c main_v22 (ix2 (row0 t p) k) := by
  show V c main_v22 (((cfg0.win 0).blk t).view.emb (ix2 p k)) = V c main_v22 (ix2 (row0 t p) k)
  refine congrArg (V c main_v22) (funext fun a => Fin.ext ?_)
  obtain ⟨e00, e01, e10, e11, e20, e21, e30, e31, e40, e41, e50, e51⟩ := idx_facts0 t
  match a with
  | ⟨0, _⟩ => show win0_0.index t (0 : Fin 2) * 10000 + 1 * p.val = t.val * 10000 + p.val; omega
  | ⟨1, _⟩ => show win0_0.index t (1 : Fin 2) * 128 + 1 * k.val = k.val; omega

/-- The node-feature window's block read at an element. -/
theorem blk0_1 (c : Dev nD) (t : Fin cfg0.N) (p : Fin 10000) (k : Fin 128) :
    iblk0 V c 1 t (ix2 p k) = V c main_arg0 (ix2 (row0 t p) k) := by
  show V c main_arg0 (((cfg0.win 1).blk t).view.emb (ix2 p k)) = V c main_arg0 (ix2 (row0 t p) k)
  refine congrArg (V c main_arg0) (funext fun a => Fin.ext ?_)
  obtain ⟨e00, e01, e10, e11, e20, e21, e30, e31, e40, e41, e50, e51⟩ := idx_facts0 t
  match a with
  | ⟨0, _⟩ => show win0_1.index t (0 : Fin 2) * 10000 + 1 * p.val = t.val * 10000 + p.val; omega
  | ⟨1, _⟩ => show win0_1.index t (1 : Fin 2) * 128 + 1 * k.val = k.val; omega

/-- The first weight window holds the whole transposed matrix at every point. -/
theorem blk0_2 (c : Dev nD) (t : Fin cfg0.N) (k : Fin 128) (q : Fin 128) :
    iblk0 V c 2 t (ix2 k q) = V c main_v23 (ix2 k q) := by
  show V c main_v23 (((cfg0.win 2).blk t).view.emb (ix2 k q)) = V c main_v23 (ix2 k q)
  refine congrArg (V c main_v23) (funext fun a => Fin.ext ?_)
  obtain ⟨e00, e01, e10, e11, e20, e21, e30, e31, e40, e41, e50, e51⟩ := idx_facts0 t
  match a with
  | ⟨0, _⟩ => show win0_2.index t (0 : Fin 2) * 128 + 1 * k.val = k.val; omega
  | ⟨1, _⟩ => show win0_2.index t (1 : Fin 2) * 128 + 1 * q.val = q.val; omega

/-- The second weight window holds the whole transposed matrix at every point. -/
theorem blk0_3 (c : Dev nD) (t : Fin cfg0.N) (k : Fin 128) (q : Fin 128) :
    iblk0 V c 3 t (ix2 k q) = V c main_v24 (ix2 k q) := by
  show V c main_v24 (((cfg0.win 3).blk t).view.emb (ix2 k q)) = V c main_v24 (ix2 k q)
  refine congrArg (V c main_v24) (funext fun a => Fin.ext ?_)
  obtain ⟨e00, e01, e10, e11, e20, e21, e30, e31, e40, e41, e50, e51⟩ := idx_facts0 t
  match a with
  | ⟨0, _⟩ => show win0_3.index t (0 : Fin 2) * 128 + 1 * k.val = k.val; omega
  | ⟨1, _⟩ => show win0_3.index t (1 : Fin 2) * 128 + 1 * q.val = q.val; omega

/-- The bias window holds the whole bias row at every point. -/
theorem blk0_4 (c : Dev nD) (t : Fin cfg0.N) (q : Fin 128) :
    iblk0 V c 4 t (ix2 (0 : Fin 1) q) = V c main_v25 (ix2 (0 : Fin 1) q) := by
  show V c main_v25 (((cfg0.win 4).blk t).view.emb (ix2 (0 : Fin 1) q)) = V c main_v25 (ix2 (0 : Fin 1) q)
  refine congrArg (V c main_v25) (funext fun a => Fin.ext ?_)
  obtain ⟨e00, e01, e10, e11, e20, e21, e30, e31, e40, e41, e50, e51⟩ := idx_facts0 t
  match a with
  | ⟨0, _⟩ => show win0_4.index t (0 : Fin 2) * 1 + 1 * 0 = 0; omega
  | ⟨1, _⟩ => show win0_4.index t (1 : Fin 2) * 128 + 1 * q.val = q.val; omega

/-- Where element `(p, q)` of the output block at point `t` sits in the output array. -/
theorem emb0_5 (t : Fin cfg0.N) (p : Fin 10000) (q : Fin 128) :
    ((cfg0.win 5).blk t).view.emb (ix2 p q) = ix2 (row0 t p) q := by
  refine funext fun a => Fin.ext ?_
  obtain ⟨e00, e01, e10, e11, e20, e21, e30, e31, e40, e41, e50, e51⟩ := idx_facts0 t
  match a with
  | ⟨0, _⟩ => show win0_5.index t (0 : Fin 2) * 10000 + 1 * p.val = t.val * 10000 + p.val; omega
  | ⟨1, _⟩ => show win0_5.index t (1 : Fin 2) * 128 + 1 * q.val = q.val; omega

/-- What point `t` writes back is block `t` of the layer's whole-array function of the arrays the region found. -/
theorem flushed0 (c : Dev nD) (t : Fin cfg0.N) :
    (dat0 V c).flushed 5 t = ((cfg0.win 5).blk t).view.read (Elt Ideal) (hidden (V c main_v22) (V c main_arg0) (V c main_v23) (V c main_v24) (V c main_v25)) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = hidden (V c main_v22) (V c main_arg0) (V c main_v23) (V c main_v24) (V c main_v25) (((cfg0.win 5).blk t).view.emb (ix2 p q))
  rw [emb0_5 t p q]
  refine (Cert.KernelIdeal.Body.pay_hidden_apply (iblk0 V c 0 t) (iblk0 V c 1 t) (iblk0 V c 2 t) (iblk0 V c 3 t) (iblk0 V c 4 t) p q).trans ?_
  rw [Cert.Sage.hidden_apply]
  unfold Cert.Sage.lin
  simp only [blk0_0 V c t, blk0_1 V c t, blk0_2 V c t, blk0_3 V c t, blk0_4 V c t]

/-- An index of the output array lies in point `t`'s block iff each coordinate lies in the block's range. -/
theorem mem_blk0 (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v26).slice (win0_5.rect t)).set ↔ _
  rw [View.set_slice_whole, Rect.mem_set_unit]
  exact Iff.rfl

/-- The ten blocks of 10000 rows cover the 100000 rows: row `r` is in block `r / 10000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  have ht : t.val = (i 0).val / 10000 := rfl
  refine ⟨t, flush0_5 t, ?_⟩
  rw [mem_blk0]
  obtain ⟨e00, e01, e10, e11, e20, e21, e30, e31, e40, e41, e50, e51⟩ := idx_facts0 t
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- After the region the output array is the layer's function of the arrays the region found, everywhere. -/
theorem final0 (c : Dev nD) :
    (dat0 V c).arrAt 5 cfg0.N = hidden (V c main_v22) (V c main_arg0) (V c main_v23) (V c main_v24) (V c main_v25) :=
  (dat0 V c).arrAt_eq_of_cover 5 (hidden (V c main_v22) (V c main_arg0) (V c main_v23) (V c main_v24) (V c main_v25)) (fun t _ => flushed0 V c t) (cover0)

/-! ## Region 1: the second layer -/

/-- The block index of every window at every grid point: the two feature windows and the output move down the rows
    with the point, the weights and the bias stay at block 0. Decided once over the ten points. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Row `p` of point `t`'s block is row `t·10000 + p` of the array. -/
def row1 (t : Fin cfg1.N) (p : Fin 10000) : Fin 100000 :=
  ⟨t.val * 10000 + p.val, by have h := t.isLt; have hN : cfg1.N = 10 := N_1; have := p.isLt; omega⟩

/-- The aggregated-feature window's block read at an element. -/
theorem blk1_0 (c : Dev nD) (t : Fin cfg1.N) (p : Fin 10000) (k : Fin 128) :
    iblk1 V c 0 t (ix2 p k) = V c main_v45 (ix2 (row1 t p) k) := by
  show V c main_v45 (((cfg1.win 0).blk t).view.emb (ix2 p k)) = V c main_v45 (ix2 (row1 t p) k)
  refine congrArg (V c main_v45) (funext fun a => Fin.ext ?_)
  obtain ⟨e00, e01, e10, e11, e20, e21, e30, e31, e40, e41, e50, e51⟩ := idx_facts1 t
  match a with
  | ⟨0, _⟩ => show win1_0.index t (0 : Fin 2) * 10000 + 1 * p.val = t.val * 10000 + p.val; omega
  | ⟨1, _⟩ => show win1_0.index t (1 : Fin 2) * 128 + 1 * k.val = k.val; omega

/-- The node-feature window's block read at an element. -/
theorem blk1_1 (c : Dev nD) (t : Fin cfg1.N) (p : Fin 10000) (k : Fin 128) :
    iblk1 V c 1 t (ix2 p k) = V c main_v26 (ix2 (row1 t p) k) := by
  show V c main_v26 (((cfg1.win 1).blk t).view.emb (ix2 p k)) = V c main_v26 (ix2 (row1 t p) k)
  refine congrArg (V c main_v26) (funext fun a => Fin.ext ?_)
  obtain ⟨e00, e01, e10, e11, e20, e21, e30, e31, e40, e41, e50, e51⟩ := idx_facts1 t
  match a with
  | ⟨0, _⟩ => show win1_1.index t (0 : Fin 2) * 10000 + 1 * p.val = t.val * 10000 + p.val; omega
  | ⟨1, _⟩ => show win1_1.index t (1 : Fin 2) * 128 + 1 * k.val = k.val; omega

/-- The first weight window holds the whole transposed matrix at every point. -/
theorem blk1_2 (c : Dev nD) (t : Fin cfg1.N) (k : Fin 128) (q : Fin 40) :
    iblk1 V c 2 t (ix2 k q) = V c main_v46 (ix2 k q) := by
  show V c main_v46 (((cfg1.win 2).blk t).view.emb (ix2 k q)) = V c main_v46 (ix2 k q)
  refine congrArg (V c main_v46) (funext fun a => Fin.ext ?_)
  obtain ⟨e00, e01, e10, e11, e20, e21, e30, e31, e40, e41, e50, e51⟩ := idx_facts1 t
  match a with
  | ⟨0, _⟩ => show win1_2.index t (0 : Fin 2) * 128 + 1 * k.val = k.val; omega
  | ⟨1, _⟩ => show win1_2.index t (1 : Fin 2) * 40 + 1 * q.val = q.val; omega

/-- The second weight window holds the whole transposed matrix at every point. -/
theorem blk1_3 (c : Dev nD) (t : Fin cfg1.N) (k : Fin 128) (q : Fin 40) :
    iblk1 V c 3 t (ix2 k q) = V c main_v47 (ix2 k q) := by
  show V c main_v47 (((cfg1.win 3).blk t).view.emb (ix2 k q)) = V c main_v47 (ix2 k q)
  refine congrArg (V c main_v47) (funext fun a => Fin.ext ?_)
  obtain ⟨e00, e01, e10, e11, e20, e21, e30, e31, e40, e41, e50, e51⟩ := idx_facts1 t
  match a with
  | ⟨0, _⟩ => show win1_3.index t (0 : Fin 2) * 128 + 1 * k.val = k.val; omega
  | ⟨1, _⟩ => show win1_3.index t (1 : Fin 2) * 40 + 1 * q.val = q.val; omega

/-- The bias window holds the whole bias row at every point. -/
theorem blk1_4 (c : Dev nD) (t : Fin cfg1.N) (q : Fin 40) :
    iblk1 V c 4 t (ix2 (0 : Fin 1) q) = V c main_v48 (ix2 (0 : Fin 1) q) := by
  show V c main_v48 (((cfg1.win 4).blk t).view.emb (ix2 (0 : Fin 1) q)) = V c main_v48 (ix2 (0 : Fin 1) q)
  refine congrArg (V c main_v48) (funext fun a => Fin.ext ?_)
  obtain ⟨e00, e01, e10, e11, e20, e21, e30, e31, e40, e41, e50, e51⟩ := idx_facts1 t
  match a with
  | ⟨0, _⟩ => show win1_4.index t (0 : Fin 2) * 1 + 1 * 0 = 0; omega
  | ⟨1, _⟩ => show win1_4.index t (1 : Fin 2) * 40 + 1 * q.val = q.val; omega

/-- Where element `(p, q)` of the output block at point `t` sits in the output array. -/
theorem emb1_5 (t : Fin cfg1.N) (p : Fin 10000) (q : Fin 40) :
    ((cfg1.win 5).blk t).view.emb (ix2 p q) = ix2 (row1 t p) q := by
  refine funext fun a => Fin.ext ?_
  obtain ⟨e00, e01, e10, e11, e20, e21, e30, e31, e40, e41, e50, e51⟩ := idx_facts1 t
  match a with
  | ⟨0, _⟩ => show win1_5.index t (0 : Fin 2) * 10000 + 1 * p.val = t.val * 10000 + p.val; omega
  | ⟨1, _⟩ => show win1_5.index t (1 : Fin 2) * 40 + 1 * q.val = q.val; omega

/-- What point `t` writes back is block `t` of the layer's whole-array function of the arrays the region found. -/
theorem flushed1 (c : Dev nD) (t : Fin cfg1.N) :
    (dat1 V c).flushed 5 t = ((cfg1.win 5).blk t).view.read (Elt Ideal) (logits (V c main_v45) (V c main_v26) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x40) hz, View.ld_unit_zero (S := S1x40) hz]
  funext j
  obtain ⟨p, q, rfl⟩ : ∃ (p : Fin 10000) (q : Fin 40), j = ix2 p q := ⟨j 0, j 1, eq_ix2 j⟩
  show k1_pay1 (iblk1 V c 0 t) (iblk1 V c 1 t) (iblk1 V c 2 t) (iblk1 V c 3 t) (iblk1 V c 4 t) (ix2 p q)
    = logits (V c main_v45) (V c main_v26) (V c main_v46) (V c main_v47) (V c main_v48) (((cfg1.win 5).blk t).view.emb (ix2 p q))
  rw [emb1_5 t p q]
  refine (Cert.KernelIdeal.Body.pay_logits_apply (iblk1 V c 0 t) (iblk1 V c 1 t) (iblk1 V c 2 t) (iblk1 V c 3 t) (iblk1 V c 4 t) p q).trans ?_
  rw [Cert.Sage.logits_apply]
  unfold Cert.Sage.lin
  simp only [blk1_0 V c t, blk1_1 V c t, blk1_2 V c t, blk1_3 V c t, blk1_4 V c t]

/-- An index of the output array lies in point `t`'s block iff each coordinate lies in the block's range. -/
theorem mem_blk1 (t : Fin cfg1.N) (i : S100000x40.Idx) :
    i ∈ ((cfg1.win 5).blk t).view.set ↔ ∀ a : Fin 2, win1_5.index t a * S10000x40.size a ≤ (i a).val ∧ (i a).val < win1_5.index t a * S10000x40.size a + S10000x40.size a := by
  show i ∈ ((View.whole main_v49).slice (win1_5.rect t)).set ↔ _
  rw [View.set_slice_whole, Rect.mem_set_unit]
  exact Iff.rfl

/-- The ten blocks of 10000 rows cover the 100000 rows: row `r` is in block `r / 10000`. -/
theorem cover1 (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : cfg1.N = 10 := N_1
  let t : Fin cfg1.N := ⟨(i 0).val / 10000, by rw [hN]; omega⟩
  have ht : t.val = (i 0).val / 10000 := rfl
  refine ⟨t, flush1_5 t, ?_⟩
  rw [mem_blk1]
  obtain ⟨e00, e01, e10, e11, e20, e21, e30, e31, e40, e41, e50, e51⟩ := idx_facts1 t
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 40 ≤ (i 1).val ∧ (i 1).val < win1_5.index t (1 : Fin 2) * 40 + 40; omega

/-- After the region the output array is the layer's function of the arrays the region found, everywhere. -/
theorem final1 (c : Dev nD) :
    (dat1 V c).arrAt 5 cfg1.N = logits (V c main_v45) (V c main_v26) (V c main_v46) (V c main_v47) (V c main_v48) :=
  (dat1 V c).arrAt_eq_of_cover 5 (logits (V c main_v45) (V c main_v26) (V c main_v46) (V c main_v47) (V c main_v48)) (fun t _ => flushed1 V c t) (cover1)

end Cert.KernelIdeal.Blocks

end
-- ==== Proof.HostAgg.lean ====
/-
  The mean aggregation over edges as ONE function of a feature matrix and the two index vectors, in the
  reference program's vocabulary. Both layers of both programs apply exactly this chain of host operations:
  negative source indices are shifted up by the number of nodes; the source rows are gathered; the gathered
  rows are summed into their destination rows, starting from zero; the number of edges arriving at each node is
  summed the same way from ones, and raised to at least one; the row sums are divided by that count, broadcast
  along the feature axis. Nothing here is ever opened: the gather and the scatter are carried as they are
  printed, and only the fact that the same function is applied on both sides is used.
-/
import proofs.«176977_j28346784153656_1_alg».proof.Proof.Gen.ReferenceIdeal.Read

noncomputable section

namespace Cert.ReferenceIdeal.Agg

open Cert.ReferenceIdeal Cert.ReferenceIdeal.Gen Cert.ReferenceIdeal.Read Idealize.ShloMosaic Idealize.ShloMosaic.TcCoe

variable {F : FTy → Type} [FloatOps F]

/-- The source indices with the negative ones wrapped, as a column. -/
def srcPos (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32 : (⟨S_, .i32⟩ : BufTy).Contents (Elt F))))
      (addi src (broadcastInDim S1600000 ![] bcast_S_S1600000 (constantI S_ 32 100000#32 : (⟨S_, .i32⟩ : BufTy).Contents (Elt F))))
      src)

/-- The sum, into each destination row, of the source rows of the edges arriving there. -/
def sums (feat : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32 : (⟨S_, .f32⟩ : BufTy).Contents (Elt F)))
    (broadcastInDim S1600000x1 ![0] bcast_S1600000_S1600000x1_0 dst)
    (Host.gather gather_S100000x128_S1600000x1_S1600000x128_1_0_n_n_0_1_1128 feat (srcPos (F := F) src))

/-- The number of edges arriving at each node, at least one. -/
def degree (dst : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32 : (⟨S_, .f32⟩ : BufTy).Contents (Elt F)))
      (broadcastInDim S1600000x1 ![0] bcast_S1600000_S1600000x1_0 dst)
      (broadcastInDim S1600000 ![] bcast_S_S1600000 (constant S_ .f32 0x3F800000#32 : (⟨S_, .f32⟩ : BufTy).Contents (Elt F))))
    (broadcastInDim S100000 ![] bcast_S_S100000 (constant S_ .f32 0x3F800000#32 : (⟨S_, .f32⟩ : BufTy).Contents (Elt F)))

/-- The mean of the neighbours' rows. -/
def meanAgg (feat : (⟨S100000x128, .f32⟩ : BufTy).Contents (Elt F)) (src dst : (⟨S1600000, .i32⟩ : BufTy).Contents (Elt F)) : (⟨S100000x128, .f32⟩ : BufTy).Contents (Elt F) :=
  Host.divf (sums (F := F) feat src dst)
    (broadcastInDim S100000x128 ![0, 1] bcast_S100000x1_S100000x128_0_1
      (broadcastInDim S100000x1 ![0] bcast_S100000_S100000x1_0 (degree (F := F) dst)))

/-- The reference's first aggregation is the mean aggregation of the node features. -/
theorem agg1_eq (x0 : (⟨S100000x128, .f32⟩ : BufTy).Contents (Elt F)) (x1 : (⟨S2x1600000, .i32⟩ : BufTy).Contents (Elt F)) :
    val_main_v22 (F := F) x0 x1 = meanAgg (F := F) x0 (val_main_v1 (F := F) x1) (val_main_v3 (F := F) x1) := rfl

/-- The reference's second aggregation is the mean aggregation of the first layer's output, over the same edges. -/
theorem agg2_eq (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v50 (F := F) x0 x1 x2 x3 x4
      = meanAgg (F := F) (val_main_v31 (F := F) x0 x1 x2 x3 x4) (val_main_v1 (F := F) x1) (val_main_v3 (F := F) x1) := rfl

end Cert.ReferenceIdeal.Agg

end
-- ==== Proof.RefValue.lean ====
/-
  The reference program's two layers, read element by element from its generated stage lemmas and restated with
  the layer functions of the specification.

  At node `p`, output feature `q` the reference's first layer is

      max ( ((∑ k, agg[p,k]·wl[k,q]) + b[0,q]) + (∑ k, x[p,k]·wr[k,q]) , 0 )

  with `agg` its mean aggregation of `x`, `wl`, `wr` the transposed weights and `b` the bias as a row; the
  specification adds the bias last. Addition of extended reals is commutative and associative, so the two agree
  with no condition on the entries. The second layer is the same without the maximum, over 40 output features,
  with the first layer's output in place of `x` and its mean aggregation in place of `agg`.
-/
import proofs.«176977_j28346784153656_1_alg».proof.Proof.Gen.ReferenceIdeal.Read
import proofs.«176977_j28346784153656_1_alg».proof.Proof.Spec
import proofs.«176977_j28346784153656_1_alg».proof.Proof.HostAgg

noncomputable section

namespace Cert.ReferenceIdeal.Layers

open Cert.ReferenceIdeal Cert.ReferenceIdeal.Gen Cert.ReferenceIdeal.Read Cert.ReferenceIdeal.Agg Cert.Sage
open Idealize.ShloMosaic Idealize.ShloMosaic.TcCoe Idealize.ShloMosaic.ValueIdx

/-- The reference's hidden layer is the specification's, of its own aggregation, transposes and bias row. -/
theorem hidden_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4
      = hidden (val_main_v22 (F := Ideal) x0 x1) x0 (val_main_v23 (F := Ideal) x2) (val_main_v28 (F := Ideal) x4) (val_main_v25 (F := Ideal) x3) := by
  funext i
  obtain ⟨p, q, rfl⟩ : ∃ (p : Fin 100000) (q : Fin 128), i = ix2 p q := ⟨i 0, i 1, eq_ix2 i⟩
  rw [val_main_v31_apply, val_main_v30_apply, val_main_v27_apply, val_main_v24_apply, val_main_v29_apply, val_main_v26_apply,
    val_main_call0_v0_apply, val_main_call0_cst_apply, hidden_apply]
  have el1 : ∀ k : Fin 128, lidx_main_v24 (ix2 p q) k = ix2 p k := fun k => funext fun a => Fin.ext (by
    match a with
    | ⟨0, _⟩ => rfl
    | ⟨1, _⟩ => rfl)
  have er1 : ∀ k : Fin 128, ridx_main_v24 (ix2 p q) k = ix2 k q := fun k => funext fun a => Fin.ext (by
    match a with
    | ⟨0, _⟩ => rfl
    | ⟨1, _⟩ => rfl)
  have el2 : ∀ k : Fin 128, lidx_main_v29 (ix2 p q) k = ix2 p k := fun k => funext fun a => Fin.ext (by
    match a with
    | ⟨0, _⟩ => rfl
    | ⟨1, _⟩ => rfl)
  have er2 : ∀ k : Fin 128, ridx_main_v29 (ix2 p q) k = ix2 k q := fun k => funext fun a => Fin.ext (by
    match a with
    | ⟨0, _⟩ => rfl
    | ⟨1, _⟩ => rfl)
  have eb : idx_main_v26 (ix2 p q) = ix2 (0 : Fin 1) q := funext fun a => Fin.ext (by
    match a with
    | ⟨0, _⟩ => rfl
    | ⟨1, _⟩ => rfl)
  simp only [el1, er1, el2, er2, eb, Ideal.maximumf_def, Ideal.addf_def, Ideal.ofBits_def, Ideal.ofBits_zero_f32]
  unfold lin
  exact congrArg (fun z => max z (0 : EReal)) (add_bias_middle _ _ _)

/-- The reference's result is the specification's second layer, of its own second aggregation, hidden layer,
    transposes and bias row. -/
theorem logits_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal)) :
    val_main_v58 (F := Ideal) x0 x1 x2 x3 x4 x5 x6 x7
      = logits (val_main_v50 (F := Ideal) x0 x1 x2 x3 x4) (val_main_v31 (F := Ideal) x0 x1 x2 x3 x4)
          (val_main_v51 (F := Ideal) x5) (val_main_v56 (F := Ideal) x7) (val_main_v53 (F := Ideal) x6) := by
  funext i
  obtain ⟨p, q, rfl⟩ : ∃ (p : Fin 100000) (q : Fin 40), i = ix2 p q := ⟨i 0, i 1, eq_ix2 i⟩
  rw [val_main_v58_apply, val_main_v55_apply, val_main_v52_apply, val_main_v57_apply, val_main_v54_apply, logits_apply]
  have el1 : ∀ k : Fin 128, lidx_main_v52 (ix2 p q) k = ix2 p k := fun k => funext fun a => Fin.ext (by
    match a with
    | ⟨0, _⟩ => rfl
    | ⟨1, _⟩ => rfl)
  have er1 : ∀ k : Fin 128, ridx_main_v52 (ix2 p q) k = ix2 k q := fun k => funext fun a => Fin.ext (by
    match a with
    | ⟨0, _⟩ => rfl
    | ⟨1, _⟩ => rfl)
  have el2 : ∀ k : Fin 128, lidx_main_v57 (ix2 p q) k = ix2 p k := fun k => funext fun a => Fin.ext (by
    match a with
    | ⟨0, _⟩ => rfl
    | ⟨1, _⟩ => rfl)
  have er2 : ∀ k : Fin 128, ridx_main_v57 (ix2 p q) k = ix2 k q := fun k => funext fun a => Fin.ext (by
    match a with
    | ⟨0, _⟩ => rfl
    | ⟨1, _⟩ => rfl)
  have eb : idx_main_v54 (ix2 p q) = ix2 (0 : Fin 1) q := funext fun a => Fin.ext (by
    match a with
    | ⟨0, _⟩ => rfl
    | ⟨1, _⟩ => rfl)
  simp only [el1, er1, el2, er2, eb, Ideal.addf_def]
  unfold lin
  exact add_bias_middle _ _ _

/-- The bias row the reference builds from the bias vector, read at its one row. -/
theorem bias1_apply (x3 : (⟨S128, .f32⟩ : BufTy).Contents (Elt Ideal)) (q : Fin 128) :
    val_main_v25 (F := Ideal) x3 (ix2 (0 : Fin 1) q) = x3 (ix1 q) := by
  rw [val_main_v25_apply]
  exact congrArg x3 (funext fun a => Fin.ext (by match a with | ⟨0, _⟩ => rfl))

theorem bias2_apply (x6 : (⟨S40, .f32⟩ : BufTy).Contents (Elt Ideal)) (q : Fin 40) :
    val_main_v53 (F := Ideal) x6 (ix2 (0 : Fin 1) q) = x6 (ix1 q) := by
  rw [val_main_v53_apply]
  exact congrArg x6 (funext fun a => Fin.ext (by match a with | ⟨0, _⟩ => rfl))

end Cert.ReferenceIdeal.Layers

end
-- ==== Proof.SpecRow.lean ====
/-
  The bias of a layer enters only through its one row: two bias matrices with the same row give the same layer.
  The kernel reshapes the bias vector to a row, the reference broadcasts it to one; both rows are the vector.
-/
import proofs.«176977_j28346784153656_1_alg».proof.Proof.Spec

noncomputable section

namespace Cert.Sage

open Idealize.ShloMosaic Idealize.ShloMosaic.ValueIdx

/-- A vector of `n` extended reals as a one-row matrix. -/
def rowOf {n : Nat} (v : (⟨1, ![n]⟩ : Shape).Idx → EReal) : Mat 1 n := fun j => v (ix1 (j 1))

theorem rowOf_apply {n : Nat} (v : (⟨1, ![n]⟩ : Shape).Idx → EReal) (q : Fin n) :
    rowOf v (ix2 (0 : Fin 1) q) = v (ix1 q) := rfl

theorem lin_congr_bias {n : Nat} (agg x : Mat 100000 128) (wl wr : Mat 128 n) (b b' : Mat 1 n) (p : Fin 100000) (q : Fin n)
    (h : b (ix2 (0 : Fin 1) q) = b' (ix2 (0 : Fin 1) q)) : lin agg x wl wr b p q = lin agg x wl wr b' p q := by
  unfold lin; rw [h]

theorem hidden_congr_bias (agg x : Mat 100000 128) (wl wr : Mat 128 128) (b b' : Mat 1 128)
    (h : ∀ q : Fin 128, b (ix2 (0 : Fin 1) q) = b' (ix2 (0 : Fin 1) q)) : hidden agg x wl wr b = hidden agg x wl wr b' :=
  funext fun i => congrArg (fun z => max z (0 : EReal)) (lin_congr_bias agg x wl wr b b' (i 0) (i 1) (h (i 1)))

theorem logits_congr_bias (agg x : Mat 100000 128) (wl wr : Mat 128 40) (b b' : Mat 1 40)
    (h : ∀ q : Fin 40, b (ix2 (0 : Fin 1) q) = b' (ix2 (0 : Fin 1) q)) : logits agg x wl wr b = logits agg x wl wr b' :=
  funext fun i => lin_congr_bias agg x wl wr b b' (i 0) (i 1) (h (i 1))

/-- `hidden` of equal arrays, and of bias matrices with the same row, is the same array. -/
theorem hidden_congr {agg agg' x x' : Mat 100000 128} {wl wl' wr wr' : Mat 128 128} {b b' : Mat 1 128}
    (h1 : agg = agg') (h2 : x = x') (h3 : wl = wl') (h4 : wr = wr')
    (h5 : ∀ q : Fin 128, b (ix2 (0 : Fin 1) q) = b' (ix2 (0 : Fin 1) q)) : hidden agg x wl wr b = hidden agg' x' wl' wr' b' := by
  subst h1 h2 h3 h4; exact hidden_congr_bias _ _ _ _ _ _ h5

/-- `logits` of equal arrays, and of bias matrices with the same row, is the same array. -/
theorem logits_congr {agg agg' x x' : Mat 100000 128} {wl wl' wr wr' : Mat 128 40} {b b' : Mat 1 40}
    (h1 : agg = agg') (h2 : x = x') (h3 : wl = wl') (h4 : wr = wr')
    (h5 : ∀ q : Fin 40, b (ix2 (0 : Fin 1) q) = b' (ix2 (0 : Fin 1) q)) : logits agg x wl wr b = logits agg' x' wl' wr' b' := by
  subst h1 h2 h3 h4; exact logits_congr_bias _ _ _ _ _ _ h5

end Cert.Sage

end
-- ==== Proof.RefResult.lean ====
/-
  The whole computation as one function of the eight argument arrays.

  With `src`, `dst` the two rows of the edge array, `meanAgg` the mean aggregation over the edges, `wlᵀ`, `wrᵀ` the
  transposed weights and each bias as a row:

      H      = hidden (meanAgg x src dst) x  wl1ᵀ wr1ᵀ b1
      result = logits (meanAgg H src dst) H  wl2ᵀ wr2ᵀ b2.

  The reference's result stage is this function of its arguments.
-/
import proofs.«176977_j28346784153656_1_alg».proof.Proof.RefValue
import proofs.«176977_j28346784153656_1_alg».proof.Proof.SpecRow

noncomputable section

namespace Cert.ReferenceIdeal.Layers

open Cert.ReferenceIdeal Cert.ReferenceIdeal.Gen Cert.ReferenceIdeal.Read Cert.ReferenceIdeal.Agg Cert.Sage
open Idealize.ShloMosaic Idealize.ShloMosaic.TcCoe Idealize.ShloMosaic.ValueIdx

/-- The first layer's output as a function of the arguments. -/
def hiddenOf (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) : Mat 100000 128 :=
  hidden (meanAgg (F := Ideal) x0 (val_main_v1 (F := Ideal) x1) (val_main_v3 (F := Ideal) x1)) x0
    (val_main_v23 (F := Ideal) x2) (val_main_v28 (F := Ideal) x4) (rowOf x3)

/-- The result as a function of the arguments. -/
def resultOf (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal)) : Mat 100000 40 :=
  logits (meanAgg (F := Ideal) (hiddenOf x0 x1 x2 x3 x4) (val_main_v1 (F := Ideal) x1) (val_main_v3 (F := Ideal) x1)) (hiddenOf x0 x1 x2 x3 x4)
    (val_main_v51 (F := Ideal) x5) (val_main_v56 (F := Ideal) x7) (rowOf x6)

theorem hiddenOf_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = hiddenOf x0 x1 x2 x3 x4 :=
  (hidden_eq x0 x1 x2 x3 x4).trans
    (hidden_congr (agg1_eq (F := Ideal) x0 x1) rfl rfl rfl (fun q => (bias1_apply x3 q).trans (rowOf_apply x3 q).symm))

theorem resultOf_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal)) :
    val_main_v58 (F := Ideal) x0 x1 x2 x3 x4 x5 x6 x7 = resultOf x0 x1 x2 x3 x4 x5 x6 x7 :=
  (logits_eq x0 x1 x2 x3 x4 x5 x6 x7).trans
    (logits_congr ((agg2_eq (F := Ideal) x0 x1 x2 x3 x4).trans (congrArg (fun h => meanAgg (F := Ideal) h (val_main_v1 (F := Ideal) x1) (val_main_v3 (F := Ideal) x1)) (hiddenOf_eq x0 x1 x2 x3 x4)))
      (hiddenOf_eq x0 x1 x2 x3 x4) rfl rfl (fun q => (bias2_apply x6 q).trans (rowOf_apply x6 q).symm))

end Cert.ReferenceIdeal.Layers

end
-- ==== Proof.KernelValue.lean ====
/-
  The idealized kernel program's result array as a function of its eight argument arrays.

  The buffer contents at each boundary of @main are a fold: the launch memory; the first stretch of host
  operations (slicing the edge array into its two rows, the mean aggregation of the node features, the two
  transposes and the reshape of the bias); the first region, which leaves in its output array the first layer's
  function of the arrays it found; the second stretch (the mean aggregation of that output over the same two rows,
  the transposes and the bias of the second layer); the second region. Reading the fold back from the result's
  buffer to the launch memory gives the result as `resultOf` of the arguments — the very function the reference
  computes.
-/
import proofs.«176977_j28346784153656_1_alg».proof.Proof.Gen.KernelIdeal.Frame
import proofs.«176977_j28346784153656_1_alg».proof.Proof.Regions
import proofs.«176977_j28346784153656_1_alg».proof.Proof.RefResult
import Idealize.ShloMosaic.Lib.StableHlo.Run
import Idealize.ShloMosaic.Lib.ValueLayout

set_option maxRecDepth 16384

noncomputable section

namespace Cert.KernelIdeal.Value

open Cert.KernelIdeal Cert.KernelIdeal.Gen Cert.Sage
open Idealize.ShloMosaic Idealize.ShloMosaic.TcCoe Idealize.ShloMosaic.ValueIdx Idealize.SL.Sem Idealize.ShloMosaic.StableHlo

/-! ## The two stretches of host operations, from any contents `W` -/

section Stretches

variable (W : Valuation τ sig (Elt Ideal))

/-- The first stretch leaves the source row of the edge array in its buffer. -/
theorem s0_v1 : StableHlo.after (hostOps0 : List (HloOp τ sig (Elt Ideal))) W (Proc.devRef .tc main_v1) = Cert.ReferenceIdeal.Read.val_main_v1 (F := Ideal) (W (Proc.devRef .tc main_arg1)) := by
  after_results <;> rfl

/-- The first stretch leaves the destination row of the edge array in its buffer. -/
theorem s0_v3 : StableHlo.after (hostOps0 : List (HloOp τ sig (Elt Ideal))) W (Proc.devRef .tc main_v3) = Cert.ReferenceIdeal.Read.val_main_v3 (F := Ideal) (W (Proc.devRef .tc main_arg1)) := by
  after_results <;> rfl

set_option maxHeartbeats 4000000 in
/-- The first stretch's aggregate is the mean aggregation of the node features over the two rows. -/
theorem s0_v22 : StableHlo.after (hostOps0 : List (HloOp τ sig (Elt Ideal))) W (Proc.devRef .tc main_v22)
    = Cert.ReferenceIdeal.Agg.meanAgg (F := Ideal) (W (Proc.devRef .tc main_arg0)) (Cert.ReferenceIdeal.Read.val_main_v1 (F := Ideal) (W (Proc.devRef .tc main_arg1))) (Cert.ReferenceIdeal.Read.val_main_v3 (F := Ideal) (W (Proc.devRef .tc main_arg1))) := by
  after_results_simp <;> rfl

theorem s0_v23 : StableHlo.after (hostOps0 : List (HloOp τ sig (Elt Ideal))) W (Proc.devRef .tc main_v23) = Cert.ReferenceIdeal.Read.val_main_v23 (F := Ideal) (W (Proc.devRef .tc main_arg2)) := by
  after_results <;> rfl

theorem s0_v24 : StableHlo.after (hostOps0 : List (HloOp τ sig (Elt Ideal))) W (Proc.devRef .tc main_v24) = Cert.ReferenceIdeal.Read.val_main_v28 (F := Ideal) (W (Proc.devRef .tc main_arg4)) := by
  after_results <;> rfl

theorem s0_v25 : StableHlo.after (hostOps0 : List (HloOp τ sig (Elt Ideal))) W (Proc.devRef .tc main_v25) = shapeCast S1x128 (W (Proc.devRef .tc main_arg3)) shapeCasts_S128_S1x128 := by
  after_results <;> rfl

theorem s0_arg0 : StableHlo.after (hostOps0 : List (HloOp τ sig (Elt Ideal))) W (Proc.devRef .tc main_arg0) = W (Proc.devRef .tc main_arg0) := by
  after_results <;> rfl
theorem s0_arg1 : StableHlo.after (hostOps0 : List (HloOp τ sig (Elt Ideal))) W (Proc.devRef .tc main_arg1) = W (Proc.devRef .tc main_arg1) := by
  after_results <;> rfl
theorem s0_arg5 : StableHlo.after (hostOps0 : List (HloOp τ sig (Elt Ideal))) W (Proc.devRef .tc main_arg5) = W (Proc.devRef .tc main_arg5) := by
  after_results <;> rfl
theorem s0_arg6 : StableHlo.after (hostOps0 : List (HloOp τ sig (Elt Ideal))) W (Proc.devRef .tc main_arg6) = W (Proc.devRef .tc main_arg6) := by
  after_results <;> rfl
theorem s0_arg7 : StableHlo.after (hostOps0 : List (HloOp τ sig (Elt Ideal))) W (Proc.devRef .tc main_arg7) = W (Proc.devRef .tc main_arg7) := by
  after_results <;> rfl

set_option maxHeartbeats 4000000 in
/-- The second stretch's aggregate is the mean aggregation of the first region's output over the two rows. -/
theorem s1_v45 : StableHlo.after (hostOps1 : List (HloOp τ sig (Elt Ideal))) W (Proc.devRef .tc main_v45)
    = Cert.ReferenceIdeal.Agg.meanAgg (F := Ideal) (W (Proc.devRef .tc main_v26)) (W (Proc.devRef .tc main_v1)) (W (Proc.devRef .tc main_v3)) := by
  after_results_simp <;> rfl

theorem s1_v26 : StableHlo.after (hostOps1 : List (HloOp τ sig (Elt Ideal))) W (Proc.devRef .tc main_v26) = W (Proc.devRef .tc main_v26) := by
  after_results <;> rfl

theorem s1_v46 : StableHlo.after (hostOps1 : List (HloOp τ sig (Elt Ideal))) W (Proc.devRef .tc main_v46) = Cert.ReferenceIdeal.Read.val_main_v51 (F := Ideal) (W (Proc.devRef .tc main_arg5)) := by
  after_results <;> rfl

theorem s1_v47 : StableHlo.after (hostOps1 : List (HloOp τ sig (Elt Ideal))) W (Proc.devRef .tc main_v47) = Cert.ReferenceIdeal.Read.val_main_v56 (F := Ideal) (W (Proc.devRef .tc main_arg7)) := by
  after_results <;> rfl

theorem s1_v48 : StableHlo.after (hostOps1 : List (HloOp τ sig (Elt Ideal))) W (Proc.devRef .tc main_v48) = shapeCast S1x40 (W (Proc.devRef .tc main_arg6)) shapeCasts_S40_S1x40 := by
  after_results <;> rfl

end Stretches

/-! ## The fold read back -/

variable (m : (ℓ : Loc nD τ sig) → Buf (Elt Ideal) ℓ) (ρ : Dev nD → PrngReg) (c : Dev nD)

/-- After the first region its output array is the first layer's function of the arguments. -/
theorem hidden_at : W2 m ρ c (Proc.devRef .tc main_v26)
    = Cert.ReferenceIdeal.Layers.hiddenOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 5).trans ((Cert.KernelIdeal.Blocks.final0 (V1 m ρ) c).trans
    (hidden_congr (s0_v22 (W0 m ρ c)) (s0_arg0 (W0 m ρ c)) (s0_v23 (W0 m ρ c)) (s0_v24 (W0 m ρ c))
      (fun q => (congrFun (s0_v25 (W0 m ρ c)) (ix2 (0 : Fin 1) q)).trans
        ((shapeCast_a_1a_apply _ shapeCasts_S128_S1x128 (0 : Fin 1) q).trans (rowOf_apply _ q).symm))))

/-- The source row survives the first region. -/
theorem src_at : W2 m ρ c (Proc.devRef .tc main_v1) = Cert.ReferenceIdeal.Read.val_main_v1 (F := Ideal) (m ((c.tc : Thread nD τ).loc main_arg1)) :=
  (W2_of_ne m ρ c main_v1 (by decide)).trans (s0_v1 (W0 m ρ c))

/-- The destination row survives the first region. -/
theorem dst_at : W2 m ρ c (Proc.devRef .tc main_v3) = Cert.ReferenceIdeal.Read.val_main_v3 (F := Ideal) (m ((c.tc : Thread nD τ).loc main_arg1)) :=
  (W2_of_ne m ρ c main_v3 (by decide)).trans (s0_v3 (W0 m ρ c))

theorem arg5_at : W2 m ρ c (Proc.devRef .tc main_arg5) = (m ((c.tc : Thread nD τ).loc main_arg5)) :=
  (W2_of_ne m ρ c main_arg5 (by decide)).trans (s0_arg5 (W0 m ρ c))

theorem arg6_at : W2 m ρ c (Proc.devRef .tc main_arg6) = (m ((c.tc : Thread nD τ).loc main_arg6)) :=
  (W2_of_ne m ρ c main_arg6 (by decide)).trans (s0_arg6 (W0 m ρ c))

theorem arg7_at : W2 m ρ c (Proc.devRef .tc main_arg7) = (m ((c.tc : Thread nD τ).loc main_arg7)) :=
  (W2_of_ne m ρ c main_arg7 (by decide)).trans (s0_arg7 (W0 m ρ c))

/-- The mean aggregation of equal arrays over equal rows. -/
theorem meanAgg_congr {f f' : (⟨Cert.ReferenceIdeal.S100000x128, .f32⟩ : BufTy).Contents (Elt Ideal)}
    {s s' d d' : (⟨Cert.ReferenceIdeal.S1600000, .i32⟩ : BufTy).Contents (Elt Ideal)} (h1 : f = f') (h2 : s = s') (h3 : d = d') :
    Cert.ReferenceIdeal.Agg.meanAgg (F := Ideal) f s d = Cert.ReferenceIdeal.Agg.meanAgg (F := Ideal) f' s' d' := by
  subst h1 h2 h3; rfl

/-- THE KERNEL'S RESULT: after the second region the result array is `resultOf` of the arguments. -/
theorem result_at : W4 m ρ c (Proc.devRef .tc main_v49)
    = Cert.ReferenceIdeal.Layers.resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W4_arr m ρ c 5).trans ((Cert.KernelIdeal.Blocks.final1 (V3 m ρ) c).trans
    (logits_congr
      ((s1_v45 (W2 m ρ c)).trans (meanAgg_congr (hidden_at m ρ c) (src_at m ρ c) (dst_at m ρ c)))
      ((s1_v26 (W2 m ρ c)).trans (hidden_at m ρ c))
      ((s1_v46 (W2 m ρ c)).trans (congrArg (Cert.ReferenceIdeal.Read.val_main_v51 (F := Ideal)) (arg5_at m ρ c)))
      ((s1_v47 (W2 m ρ c)).trans (congrArg (Cert.ReferenceIdeal.Read.val_main_v56 (F := Ideal)) (arg7_at m ρ c)))
      (fun q => (congrFun (s1_v48 (W2 m ρ c)) (ix2 (0 : Fin 1) q)).trans
        ((shapeCast_a_1a_apply _ shapeCasts_S40_S1x40 (0 : Fin 1) q).trans
          ((congrFun (arg6_at m ρ c) (ix1 q)).trans (rowOf_apply _ q).symm)))))

end Cert.KernelIdeal.Value

end
-- ==== Proof.lean ====
/-
  A two-layer GraphSAGE network on 100000 nodes and 1600000 edges: the kernel program against its reference.

  Each layer aggregates, for every node, the mean of the feature rows of the nodes with an edge into it (a gather,
  two scatter-adds and a division, all on the host in both programs), and then computes

      agg · Wlᵀ + x · Wrᵀ + b            (first layer: followed by the maximum with zero)

  where the kernel program runs this dense part as a pallas_call over ten blocks of 10000 rows, multiplying
  bf16-rounded operands on the matrix unit and adding the bias last, and the reference as two whole matrix
  products with the bias added in between. On extended reals the rounding is the identity, a product into a zero
  accumulator is the sum over the contracted axis, and `(s + b) + t = (s + t) + b` holds without any condition, so
  both programs compute one function `resultOf` of the eight arguments; the aggregation is never opened, only
  applied to equal arrays on both sides. The finiteness precondition is not used.

  The three frame claims are the generated frames (the reference's is its generated run with the result dropped);
  the idealization rewrote nothing, so `preserves` is trivial.
-/
import proofs.«176977_j28346784153656_1_alg».proof.Defs
import proofs.«176977_j28346784153656_1_alg».proof.Proof.Gen.Kernel
import proofs.«176977_j28346784153656_1_alg».proof.Proof.Gen.Kernel.Skeleton
import proofs.«176977_j28346784153656_1_alg».proof.Proof.Gen.Kernel.Launch
import proofs.«176977_j28346784153656_1_alg».proof.Proof.Gen.Kernel.Points
import proofs.«176977_j28346784153656_1_alg».proof.Proof.Gen.Kernel.Frame
import proofs.«176977_j28346784153656_1_alg».proof.Proof.Gen.KernelIdeal
import proofs.«176977_j28346784153656_1_alg».proof.Proof.Gen.KernelIdeal.Skeleton
import proofs.«176977_j28346784153656_1_alg».proof.Proof.Gen.KernelIdeal.Launch
import proofs.«176977_j28346784153656_1_alg».proof.Proof.Gen.KernelIdeal.Points
import proofs.«176977_j28346784153656_1_alg».proof.Proof.Gen.KernelIdeal.Frame
import proofs.«176977_j28346784153656_1_alg».proof.Proof.Gen.ReferenceIdeal
import proofs.«176977_j28346784153656_1_alg».proof.Proof.Gen.Pre_finite_inputs
import proofs.«176977_j28346784153656_1_alg».proof.Proof.Gen.ReferenceIdeal.Run
import proofs.«176977_j28346784153656_1_alg».proof.Proof.Gen.ReferenceIdeal.Read
import proofs.«176977_j28346784153656_1_alg».proof.Proof.KernelRun
import proofs.«176977_j28346784153656_1_alg».proof.Proof.KernelValue
import proofs.«176977_j28346784153656_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at `resultOf` of the kernel's arguments: the kernel by
    reading its fold of boundaries back to the launch memory, the reference by its generated run and stage
    lemmas, at arguments that agree with the kernel's. -/
theorem algebraic : Cert.algebraic_KernelIdeal_ReferenceIdeal := by
  intro m ρ m' ρ' _ hagree
  refine ⟨fun c => Cert.ReferenceIdeal.Layers.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Value.result_at m ρ c), (h c).2⟩)
      (Cert.KernelIdeal.Named.run m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7⟩ := hagree c
    rw [Cert.ReferenceIdeal.Read.val_main_v58_eq, Cert.ReferenceIdeal.Layers.resultOf_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
